-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S1024x256 : Shape := ⟨2, ![1024, 256]⟩
abbrev S1024x512 : Shape := ⟨2, ![1024, 512]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S16384x256 .f32) (main_arg1 : FVec F S1024x256 .f32) (main_arg2 : FVec F S1024x512 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  main_v13
-- ==== Kernel.lean ====
abbrev S16384x256 : Shape := ⟨2, ![16384, 256]⟩
abbrev S1024x256 : Shape := ⟨2, ![1024, 256]⟩
abbrev S1024x512 : Shape := ⟨2, ![1024, 512]⟩
abbrev S_ : Shape := ⟨0, ![]⟩
abbrev S1024 : Shape := ⟨1, ![1024]⟩
abbrev S1x1024 : Shape := ⟨2, ![1, 1024]⟩
abbrev S16384x512 : Shape := ⟨2, ![16384, 512]⟩
abbrev S1024x1 : Shape := ⟨2, ![1024, 1]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024x512, .f32⟩
  | .hbm, ⟨3, _⟩ => ⟨S1024x256, .bf16⟩
  | .hbm, ⟨4, _⟩ => ⟨S1024x512, .bf16⟩
  | .hbm, ⟨5, _⟩ => ⟨S1024x256, .f32⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S16384x512, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x512, .bf16⟩
  | .local _ .vmem, ⟨4, _⟩ => ⟨S1x1024, .f32⟩
  | .local _ .vmem, ⟨5, _⟩ => ⟨S1024x512, .f32⟩
  | .local _ .vmem, ⟨6, _⟩ => ⟨S1024x512, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  reducesTo_S1024x256_S1024_d1 : S1024x256.ReducesTo [1] S1024
  h_S_ : 0 < S_.numel
  bcast_S1024_S1x1024_1 : S1024.BroadcastsInDim S1x1024 (![1] : Fin 1 → Fin S1x1024.rank)
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1024x256_S1024x256 : S1024x256.ShapeCasts S1024x256
  broadcasts_S1024x1_S1024x1024 : S1024x1.Broadcasts S1024x1024
  broadcasts_S1x1024_S1024x1024 : S1x1024.Broadcasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  dot_S1024x256_S1024x256_S1024x1024_1_1_0_0_n_n_wf : DotDims.WF S1024x256 S1024x256 S1024x1024 [1] [1] [0] [0] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S16384x512.size a
  hwx0_4 : ∀ i : grid0.Coords, EltTy.bits .f32 = 32 ∨ (Rect.block (s := S16384x512) S1024x512.size (cc0_transform_4 i) (hinb0_4 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x256 : Shape := ⟨2, ![16384, 256]⟩
abbrev S1024x256 : Shape := ⟨2, ![1024, 256]⟩
abbrev S1024x512 : Shape := ⟨2, ![1024, 512]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S256x1024 : Shape := ⟨2, ![256, 1024]⟩
abbrev S16384x512 : Shape := ⟨2, ![16384, 512]⟩

abbrev nBuf : Space → Nat
  | .hbm => 28
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024x512, .f32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S256x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x512, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S1024x256_S1024_d1 : S1024x256.ReducesTo [1] S1024
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  transposes_S1024x256_S256x1024_1_0 : S1024x256.Transposes [1, 0] S256x1024
  bcast_S_S16384x1024 : S_.BroadcastsInDim S16384x1024 (![] : Fin 0 → Fin S16384x1024.rank)
  dot_S16384x256_S256x1024_S16384x1024_1_0_0_1_n_n_wf : DotDims.WF S16384x256 S256x1024 S16384x1024 [1] [0] [0] [1] [] []
  dot_S16384x1024_S1024x512_S16384x512_1_0_0_1_n_n_wf : DotDims.WF S16384x1024 S1024x512 S16384x512 [1] [0] [0] [1] [] []

variable [Facts₀]

def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf

class Facts : Prop extends Facts₀ where

variable [Facts]
-- ==== Proof.Rbf.lean ====
/-
  A Gaussian radial-basis layer as one function of its three arrays.

  For points x [N, K], centers cen [C, K] and weights w [C, O], over the extended reals,

    basis (n, c) = exp (-1 · max (|x_n|² + |cen_c|² - 2 · ⟨x_n, cen_c⟩, 0)),      layer (n, o) = Σ_c basis (n, c) · w (c, o):

  the squared distance between a point and a center is expanded into the two squared norms and the inner product,
  clamped at zero, negated and exponentiated, and the layer's output is the product of the basis matrix with the
  weights. The scalars -1 and 2 are kept as the f32 words the programs spell them with. A row of the basis
  matrix depends on that row of x alone (basis_congr), so a block of rows of the layer is the layer of the block.
-/
import Idealize.ShloMosaic.PureOps.Ideal
import Idealize.ShloMosaic.Lib.ValueIdx

noncomputable section

open scoped BigOperators

namespace Cert.Rbf

open Idealize.ShloMosaic Idealize.ShloMosaic.ValueIdx

/-- A matrix of extended reals with R rows and C columns. -/
abbrev Mat (R C : Nat) : Type := (⟨2, ![R, C]⟩ : Shape).Idx → EReal

/-- From the two squared norms and the inner product: exp (-1 · max ((a + b) - 2 · t, 0)). -/
def gauss (a b t : EReal) : EReal :=
  Ideal.exp (Ideal.ofBits .f32 0xBF800000#32
    * max ((a + b) - Ideal.ofBits .f32 0x40000000#32 * t) 0)

/-- The squared norm of row r: the sum of the squares of its entries. -/
def sqNorm {R K : Nat} (a : Mat R K) (r : Fin R) : EReal := ∑ k : Fin K, a (ix2 r k) * a (ix2 r k)

/-- The inner product of row n of x with row c of cen. -/
def inner {N C K : Nat} (x : Mat N K) (cen : Mat C K) (n : Fin N) (c : Fin C) : EReal :=
  ∑ k : Fin K, x (ix2 n k) * cen (ix2 c k)

/-- The basis matrix: the Gaussian of the squared distance between point n and center c. -/
def basis {N C K : Nat} (x : Mat N K) (cen : Mat C K) (n : Fin N) (c : Fin C) : EReal :=
  gauss (sqNorm x n) (sqNorm cen c) (inner x cen n c)

/-- The layer: the basis matrix times the weights. -/
def layer {N C K O : Nat} (x : Mat N K) (cen : Mat C K) (w : Mat C O) : Mat N O :=
  fun i => ∑ c : Fin C, basis x cen (i 0) c * w (ix2 c (i 1))

theorem layer_ix2 {N C K O : Nat} (x : Mat N K) (cen : Mat C K) (w : Mat C O) (n : Fin N) (o : Fin O) :
    layer x cen w (ix2 n o) = ∑ c : Fin C, basis x cen n c * w (ix2 c o) := rfl

/-- Rows that agree entry by entry have the same squared norm. -/
theorem sqNorm_congr {R R' K : Nat} (a : Mat R K) (a' : Mat R' K) (r : Fin R) (r' : Fin R')
    (h : ∀ k : Fin K, a (ix2 r k) = a' (ix2 r' k)) : sqNorm a r = sqNorm a' r' :=
  Finset.sum_congr rfl fun k _ => by rw [h k]

/-- The basis entry of a point and a center depends on that point's row and that center's row alone. -/
theorem basis_congr {N N' C C' K : Nat} (x : Mat N K) (x' : Mat N' K) (cen : Mat C K) (cen' : Mat C' K)
    (n : Fin N) (n' : Fin N') (c : Fin C) (c' : Fin C')
    (hx : ∀ k : Fin K, x (ix2 n k) = x' (ix2 n' k)) (hc : ∀ k : Fin K, cen (ix2 c k) = cen' (ix2 c' k)) :
    basis x cen n c = basis x' cen' n' c' := by
  unfold basis inner
  rw [sqNorm_congr x x' n n' hx, sqNorm_congr cen cen' c c' hc]
  exact congrArg _ (Finset.sum_congr rfl fun k _ => by rw [hx k, hc k])

end Cert.Rbf

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.LibDotRows.lean ====
/-
  A matrix product of rows against rows, [M, K] × [N, K] → [M, N], read at an index over the extended reals.

  With the contraction on axis 1 of BOTH operands and no batch axis (x · yᵀ without the transpose being formed), the
  product's entry (p, q) is the sum over k of lhs (p, k) · rhs (q, k): for a matrix unit's product into a zero
  accumulator (matmul_zero_apply) and for the host's dot_general (dotGeneral_apply) alike, whatever precision or
  schedule key they carry. Both follow from re-indexing the sum over the one-axis contraction shape by its coordinate
  (contr_sum).
-/
import Idealize.ShloMosaic.PureOps.Ideal.Laws
import Idealize.ShloMosaic.Lib.ValueIdx

noncomputable section

open scoped BigOperators

namespace Cert.DotRows

open Idealize.ShloMosaic Idealize.ShloMosaic.ValueIdx

variable {M K N : Nat}

/-- The dimension numbers of the product of rows against rows. -/
abbrev rowsDims (M K N : Nat) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable (wf : DotDims.WF ⟨2, ![M, K]⟩ ⟨2, ![N, K]⟩ ⟨2, ![M, N]⟩ [1] [1] [0] [0] [] [])

/-- The left operand's row coordinate is the result's row, whatever the contraction index. -/
theorem lhs_row (j : (⟨2, ![M, N]⟩ : Shape).Idx) (r : (rowsDims M K N wf).contr.Idx) :
    ((rowsDims M K N wf).lhsIdx j r 0).val = (j 0).val := by
  unfold DotDims.lhsIdx
  rw [dif_neg (show ¬ (0 : Fin 2) ∈ (rowsDims M K N wf).lhsBatch from List.not_mem_nil),
    dif_pos (show (0 : Fin 2) ∈ (rowsDims M K N wf).lhsNonContracting from List.mem_singleton.mpr rfl)]
  rfl

/-- The right operand's row coordinate is the result's column, whatever the contraction index. -/
theorem rhs_row (j : (⟨2, ![M, N]⟩ : Shape).Idx) (r : (rowsDims M K N wf).contr.Idx) :
    ((rowsDims M K N wf).rhsIdx j r 0).val = (j 1).val := by
  unfold DotDims.rhsIdx
  rw [dif_neg (show ¬ (0 : Fin 2) ∈ (rowsDims M K N wf).rhsBatch from List.not_mem_nil),
    dif_pos (show (0 : Fin 2) ∈ (rowsDims M K N wf).rhsNonContracting from List.mem_singleton.mpr rfl)]
  rfl

/-- The sum over the contraction shape is the sum over k of lhs (p, k) · rhs (q, k). -/
theorem contr_sum (lhs : (⟨2, ![M, K]⟩ : Shape).Idx → EReal) (rhs : (⟨2, ![N, K]⟩ : Shape).Idx → EReal) (p : Fin M) (q : Fin N) :
    ∑ k : (rowsDims M K N wf).contr.Idx, lhs ((rowsDims M K N wf).lhsIdx (ix2 p q) k) * rhs ((rowsDims M K N wf).rhsIdx (ix2 p q) k)
      = ∑ k : Fin K, lhs (ix2 p k) * rhs (ix2 q k) := by
  rw [← Equiv.sum_comp (contrEquiv1 (rowsDims M K N wf) K rfl rfl).symm]
  refine Finset.sum_congr rfl fun k _ => ?_
  have hk := contrEquiv1_symm_val (rowsDims M K N wf) K rfl rfl k
  have el : (rowsDims M K N wf).lhsIdx (ix2 p q) ((contrEquiv1 (rowsDims M K N wf) K rfl rfl).symm k) = ix2 p k :=
    funext fun a => Fin.ext (by
      match a with
      | ⟨0, _⟩ => exact lhs_row wf _ _
      | ⟨1, _⟩ => exact ((rowsDims M K N wf).lhsIdx_val_of_single rfl _ _).trans hk)
  have er : (rowsDims M K N wf).rhsIdx (ix2 p q) ((contrEquiv1 (rowsDims M K N wf) K rfl rfl).symm k) = ix2 q k :=
    funext fun a => Fin.ext (by
      match a with
      | ⟨0, _⟩ => exact rhs_row wf _ _
      | ⟨1, _⟩ => exact ((rowsDims M K N wf).rhsIdx_val_of_single rfl _ _).trans hk)
  rw [el, er]

/-- A MATRIX UNIT'S PRODUCT INTO A ZERO ACCUMULATOR, read at (p, q), for ANY dimension numbers of the rows-against-rows form. -/
theorem matmul_zero_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the rows-against-rows form. -/
theorem dotGeneral_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (sched : HostSchedule) (lhs : FVec Ideal ⟨2, ![M, K]⟩ φ₁) (rhs : FVec Ideal ⟨2, ![N, K]⟩ φ₂)
    (p : Fin M) (q : Fin N) :
    FloatOps.dotGeneral d prec sched lhs rhs (ix2 p q) = ∑ k : Fin K, lhs (ix2 p k) * rhs (ix2 q k) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.DotRows

end
-- ==== Proof.LibColumns.lean ====
/-
  Columns: three layout operations read at an index, for any extents.

  A reduction over the columns that keeps its axis (`sum(axis = -1, keepdims = True)`) produces a vector that is then
  viewed as a column `[a, 1]`, and a column is broadcast back along the rows to `[a, b]`; and a column is set beside a
  block of `n` columns to make `n + 1` columns. Each is read here at an index `(row, column)` built from its two
  coordinates, so that the coordinates have literal types at a use site.
-/
import Idealize.ShloMosaic.Lib.ValueIdx
import Idealize.ShloMosaic.Lib.Pipeline.Value

namespace Cert.LibColumns

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `n` columns and one more column set side by side (`N = n + 1` columns): at `(r, q)` the block of `n` columns at
    `(r, q)` when `q < n`, the single column at row `r` when `q = n`. -/
theorem concat_col_apply {R n N : ℕ} (hN : N = n + 1) (A : (⟨2, ![R, n]⟩ : Shape).Idx → α) (B : (⟨2, ![R, 1]⟩ : Shape).Idx → α)
    (h : Shape.Concatenates [⟨2, ![R, n]⟩, ⟨2, ![R, 1]⟩] ⟨2, ![R, N]⟩ 1) (r : Fin R) (q : Fin N) :
    concatenate ⟨2, ![R, N]⟩ 1 [⟨⟨2, ![R, n]⟩, A⟩, ⟨⟨2, ![R, 1]⟩, B⟩] h (ix2 r q)
      = if hq : q.val < n then A (ix2 r ⟨q.val, hq⟩) else B (ix2 r (0 : Fin 1)) := by
  split
  · next hq =>
    exact concatenate_pair_apply_left 1 A B h (ix2 r q) rfl (ix2 r ⟨q.val, hq⟩)
      (fun b => match b with | ⟨0, _⟩ => rfl | ⟨1, _⟩ => rfl)
  · next hq =>
    refine concatenate_pair_apply_right 1 A B h (ix2 r q) rfl rfl (ix2 r (0 : Fin 1))
      (fun b hb => match b, hb with | ⟨0, _⟩, _ => rfl | ⟨1, _⟩, hb => absurd rfl hb) ?_
    show 0 + n = q.val
    have := q.isLt; omega

end Cert.LibColumns
-- ==== Proof.Body.lean ====
/-
  What the kernel body computes from its four blocks, read at an index.

  The body receives a block x0 of 1024 rows of the points, the centers x1, the weights x2 and the row x3 of the centers'
  squared norms. It forms the rows' squared norms as a column, spreads column and row over a 1024 × 1024 square, takes
  the product of the block's rows against the centers' rows, and from these the Gaussian of the clamped squared
  distance; the result is the product of that basis square with the weights. At (p, q):

    Σ_c gauss (|x0_p|², x3 (0, c), ⟨x0_p, x1_c⟩) · x2 (c, q).

  Changes of float format are the identity on the extended reals and a shape cast to the same shape moves nothing.
-/
import proofs.«109111_j3968549781593_2_alg».proof.Proof.Gen.KernelIdeal.Skeleton
import proofs.«109111_j3968549781593_2_alg».proof.Proof.Rbf
import proofs.«109111_j3968549781593_2_alg».proof.Proof.LibPlainDot
import proofs.«109111_j3968549781593_2_alg».proof.Proof.LibDotRows
import proofs.«109111_j3968549781593_2_alg».proof.Proof.LibColumns
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The exponential of a vector, at an index. -/
theorem exp_apply {s : Shape} {φ : FTy} (a : FVec Ideal s φ) (i : s.Idx) : exp a i = Ideal.exp (a i) := rfl

/-- The rows' squared norms, summed along each row, set as a column and spread over the square: at (p, c) the
    squared norm of row p. -/
theorem rowSq_apply (x0 : FVec Ideal S1024x256 .f32) (h : S1024x256.Reduces [1] S1024) (hφ : FKind.Formats .f32)
    (hacc : (0x00000000#32 : BitVec 32) = FKind.add.neutral .f32 hφ) (hs : S1024.ShapeCasts S1024x1)
    (hb : S1024x1.Broadcasts S1024x1024) (p c : Fin 1024) :
    broadcastTo S1024x1024 (shapeCast S1024x1 (multiReduction .add [1] S1024 (mulf x0 x0) 0x00000000#32 h hφ hacc) hs) hb (ix2 p c)
      = Cert.Rbf.sqNorm x0 p := by
  refine (Cert.LibColumns.broadcastTo_a1_ab_apply _ hb p c).trans ?_
  refine (Cert.LibColumns.shapeCast_a_a1_apply _ hs p 0).trans ?_
  refine (Ideal.multiReduction_add_single (mulf x0 x0) _ h hφ hacc (ix1 p)).trans ?_
  unfold Cert.Rbf.sqNorm
  refine Finset.sum_congr rfl fun k _ => ?_
  have e : h.lift (ix1 p) k = ix2 p k := funext fun a => Fin.ext (by match a with | ⟨0, _⟩ => rfl | ⟨1, _⟩ => rfl)
  rw [e]
  rfl

/-- The row of the centers' squared norms spread over the square: at (p, c) its entry c. -/
theorem csqRow_apply (x3 : FVec Ideal S1x1024 .f32) (hb : S1x1024.Broadcasts S1024x1024) (p c : Fin 1024) :
    broadcastTo S1024x1024 x3 hb (ix2 p c) = x3 (ix2 (0 : Fin 1) c) :=
  broadcastTo_1b_ab_apply x3 hb p c

/-- The product of the block's rows against the centers' rows: at (p, c) their inner product. -/
theorem cross_apply (x0 : FVec Ideal S1024x256 .f32) (x1 : FVec Ideal S1024x256 .bf16) (hlt : FTy.bits .bf16 < FTy.bits .f32)
    (p c : Fin 1024) :
    matmul dot_S1024x256_S1024x256_S1024x1024_1_1_0_0_n_n none (truncf .bf16 x0 hlt) x1
        (constant S1024x1024 .f32 0x00000000#32) (ix2 p c)
      = Cert.Rbf.inner x0 x1 p c :=
  Cert.DotRows.matmul_zero_apply _ rfl rfl rfl rfl rfl rfl none (truncf .bf16 x0 hlt) x1 p c

/-- THE BODY'S RESULT AT (p, q). -/
theorem pay_apply (x0 : FVec Ideal S1024x256 .f32) (x3 : FVec Ideal S1x1024 .f32) (x1 : FVec Ideal S1024x256 .bf16)
    (x2 : FVec Ideal S1024x512 .bf16) (p : Fin 1024) (q : Fin 512) :
    k0_pay1 (F := Ideal) x0 x3 x1 x2 (ix2 p q)
      = ∑ c : Fin 1024, Cert.Rbf.gauss (Cert.Rbf.sqNorm x0 p) (x3 (ix2 (0 : Fin 1) c)) (Cert.Rbf.inner x0 x1 p c) * x2 (ix2 c q) := by
  unfold k0_pay1
  dsimp only
  simp only [shapeCast_self]
  refine (Cert.PlainDot.matmul_zero_apply _ rfl rfl rfl rfl rfl rfl none _ _ p q).trans ?_
  refine Finset.sum_congr rfl fun c _ => ?_
  refine congrArg (· * x2 (ix2 c q)) ?_
  simp only [truncf_apply, exp_apply, mulf_apply, addf_apply, subf_apply, maximumf_apply, broadcast_apply,
    csqRow_apply, cross_apply, Ideal.ofBits_def, Ideal.ofBits_zero_f32]
  unfold Cert.Rbf.gauss
  exact congrArg (fun z => Ideal.exp (_ * max (z + _ - _) 0)) (rowSq_apply x0 _ _ _ _ _ p c)

/-- A BLOCK OF ROWS OF THE LAYER: when the body's first block holds row n of the points at its row p, its second and third
    blocks the centers and the weights, and its fourth the centers' squared norms, the body's result at (p, q) is the
    layer at (n, q). -/
theorem block_layer (x : Cert.Rbf.Mat 16384 256) (cen : Cert.Rbf.Mat 1024 256) (w : Cert.Rbf.Mat 1024 512)
    (x0 : FVec Ideal S1024x256 .f32) (x3 : FVec Ideal S1x1024 .f32) (x1 : FVec Ideal S1024x256 .bf16)
    (x2 : FVec Ideal S1024x512 .bf16) (p : Fin 1024) (q : Fin 512) (n : Fin 16384)
    (h0 : ∀ k : Fin 256, x0 (ix2 p k) = x (ix2 n k))
    (h1 : ∀ (c : Fin 1024) (k : Fin 256), x1 (ix2 c k) = cen (ix2 c k))
    (h2 : ∀ c : Fin 1024, x2 (ix2 c q) = w (ix2 c q))
    (h3 : ∀ c : Fin 1024, x3 (ix2 (0 : Fin 1) c) = Cert.Rbf.sqNorm cen c) :
    k0_pay1 (F := Ideal) x0 x3 x1 x2 (ix2 p q) = Cert.Rbf.layer x cen w (ix2 n q) := by
  rw [pay_apply, Cert.Rbf.layer_ix2]
  refine Finset.sum_congr rfl fun c _ => ?_
  rw [h2 c, h3 c]
  refine congrArg (· * w (ix2 c q)) ?_
  unfold Cert.Rbf.basis Cert.Rbf.inner
  rw [Cert.Rbf.sqNorm_congr x0 x p n h0]
  exact congrArg _ (Finset.sum_congr rfl fun k _ => by rw [h0 k, h1 c k])

end Cert.KernelIdeal.Body

end
-- ==== Proof.HostPrefix.lean ====
/-
  What the region finds in the three arrays the host prepares before it.

  Before the launch the host rounds the centers and the weights to bf16 (the identity on the extended reals) and
  computes each center's squared norm, a sum along the center's row started from zero, laid out as one row of 1024
  entries. So the region's second and third windows read the centers and the weights themselves, and its fourth reads
  the row of the centers' squared norms.
-/
import proofs.«109111_j3968549781593_2_alg».proof.Proof.Gen.KernelIdeal.Frame
import proofs.«109111_j3968549781593_2_alg».proof.Proof.Rbf
import Idealize.ShloMosaic.Lib.StableHlo.Run
import Idealize.ShloMosaic.Lib.Pipeline.Value
import Idealize.ShloMosaic.PureOps.Ideal.Laws

noncomputable section

open scoped BigOperators

namespace Cert.KernelIdeal.HostPrefix

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The row of squared norms the host computes from the centers, at entry c: the squared norm of center c. -/
theorem csq_apply (cen : FVec Ideal S1024x256 .f32) (c : Fin 1024) :
    broadcastInDim S1x1024 ![1] bcast_S1024_S1x1024_1
        (Host.reduceAdd (F := Ideal) (mulf cen cen) (constant (F := Ideal) S_ .f32 0x00000000#32) reducesTo_S1024x256_S1024_d1 h_S_)
        (ix2 (0 : Fin 1) c)
      = Cert.Rbf.sqNorm cen c := by
  refine (broadcastInDim_apply _ bcast_S1024_S1x1024_1 _ (ix2 (0 : Fin 1) c) (ix1 c) (fun a => match a with
    | ⟨0, _⟩ => by show c.val = if (1024 : Nat) = 1 then 0 else c.val; rw [if_neg (by decide)])).trans ?_
  have hr : S1024x256.Reduces [1] S1024 := by decide
  simp only [Host.reduceAdd, Ideal.hostReduceAdd_def]
  rw [Ideal.hostReduceAdd_single reducesTo_S1024x256_S1024_d1 hr]
  show Ideal.ofBits .f32 0x00000000#32 + _ = _
  rw [Ideal.ofBits_zero_f32, zero_add]
  unfold Cert.Rbf.sqNorm
  refine Finset.sum_congr rfl fun k _ => ?_
  have e : hr.lift (ix1 c) k = ix2 c k := funext fun a => Fin.ext (by match a with | ⟨0, _⟩ => rfl | ⟨1, _⟩ => rfl)
  rw [e]
  rfl

/-- The region finds the centers in its second window's array. -/
theorem V_centers (c : Dev nD) : (V m c main_v0 : S1024x256.Idx → EReal) = m ((c : Thread nD τ).loc main_arg1) := by
  dsimp only [Gen.V, Gen.hostOps0]; after_results; rfl

/-- The region finds the weights in its third window's array. -/
theorem V_weights (c : Dev nD) : (V m c main_v1 : S1024x512.Idx → EReal) = m ((c : Thread nD τ).loc main_arg2) := by
  dsimp only [Gen.V, Gen.hostOps0]; after_results; rfl

/-- The region finds the row of the centers' squared norms in its fourth window's array. -/
theorem V_csq (c : Dev nD) : (V m c main_v4 : S1x1024.Idx → EReal)
    = broadcastInDim S1x1024 ![1] bcast_S1024_S1x1024_1
        (Host.reduceAdd (F := Ideal) (mulf (m ((c : Thread nD τ).loc main_arg1)) (m ((c : Thread nD τ).loc main_arg1)))
          (constant (F := Ideal) S_ .f32 0x00000000#32) reducesTo_S1024x256_S1024_d1 h_S_) := by
  dsimp only [Gen.V, Gen.hostOps0]; after_results

end Cert.KernelIdeal.HostPrefix

end
-- ==== Proof.KernelLayer.lean ====
/-
  The kernel's result array is the radial-basis layer of its three arguments.

  The grid has 16 points; point t stages rows 1024·t … 1024·t + 1023 of the points, the whole of the centers, of the
  weights and of the row of the centers' squared norms, and writes back rows 1024·t … 1024·t + 1023 of the result. What
  it writes is the body's result on those blocks, which is the layer at the same rows (Body.block_layer): a row of the
  layer depends on that row of the points alone. The 16 blocks of rows cover the result array, so after the run it is
  the layer.
-/
import proofs.«109111_j3968549781593_2_alg».proof.Proof.Gen.KernelIdeal.Value
import proofs.«109111_j3968549781593_2_alg».proof.Proof.Body
import proofs.«109111_j3968549781593_2_alg».proof.Proof.HostPrefix
import Idealize.ShloMosaic.Lib.Pipeline.Value

noncomputable section

open scoped BigOperators

namespace Cert.KernelIdeal.KernelLayer

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The windows' block indices at point t: the points' and the result's blocks move down the rows with t, the other
    three windows stay on their one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The first window's block at point t holds rows 1024·t … of the points. -/
theorem points_block (c : Dev nD) (t : Fin cfg0.N) (p : Fin 1024) (k : Fin 256) (n : Fin 16384)
    (hn : n.val = t.val * 1024 + p.val) :
    (iblk m c 0 t : Vec Ideal S1024x256 .f32) (ix2 p k)
      = (m ((c : Thread nD τ).loc main_arg0) : S16384x256.Idx → EReal) (ix2 n k) := by
  unfold iblk
  rw [View.read_apply]
  show V m c main_arg0 _ = m ((c : Thread nD τ).loc main_arg0) _
  rw [V_main_arg0]
  obtain ⟨e0, e1, -⟩ := block_indices t
  refine congrArg _ (funext fun a => Fin.ext ?_)
  match a with
  | ⟨0, _⟩ => show win0_0.index t (0 : Fin 2) * 1024 + 1 * p.val = n.val; rw [e0, hn]; omega
  | ⟨1, _⟩ => show win0_0.index t (1 : Fin 2) * 256 + 1 * k.val = k.val; rw [e1]; omega

/-- The second window's block is the centers. -/
theorem centers_block (c : Dev nD) (t : Fin cfg0.N) (cc : Fin 1024) (k : Fin 256) :
    (iblk m c 1 t : Vec Ideal S1024x256 .bf16) (ix2 cc k)
      = (m ((c : Thread nD τ).loc main_arg1) : S1024x256.Idx → EReal) (ix2 cc k) := by
  unfold iblk
  rw [View.read_apply]
  show (V m c main_v0 : S1024x256.Idx → EReal) _ = _
  rw [HostPrefix.V_centers]
  obtain ⟨-, -, e0, e1, -⟩ := block_indices t
  refine congrArg _ (funext fun a => Fin.ext ?_)
  match a with
  | ⟨0, _⟩ => show win0_1.index t (0 : Fin 2) * 1024 + 1 * cc.val = cc.val; rw [e0]; omega
  | ⟨1, _⟩ => show win0_1.index t (1 : Fin 2) * 256 + 1 * k.val = k.val; rw [e1]; omega

/-- The third window's block is the weights. -/
theorem weights_block (c : Dev nD) (t : Fin cfg0.N) (cc : Fin 1024) (q : Fin 512) :
    (iblk m c 2 t : Vec Ideal S1024x512 .bf16) (ix2 cc q)
      = (m ((c : Thread nD τ).loc main_arg2) : S1024x512.Idx → EReal) (ix2 cc q) := by
  unfold iblk
  rw [View.read_apply]
  show (V m c main_v1 : S1024x512.Idx → EReal) _ = _
  rw [HostPrefix.V_weights]
  obtain ⟨-, -, -, -, e0, e1, -⟩ := block_indices t
  refine congrArg _ (funext fun a => Fin.ext ?_)
  match a with
  | ⟨0, _⟩ => show win0_2.index t (0 : Fin 2) * 1024 + 1 * cc.val = cc.val; rw [e0]; omega
  | ⟨1, _⟩ => show win0_2.index t (1 : Fin 2) * 512 + 1 * q.val = q.val; rw [e1]; omega

/-- The fourth window's block is the row of the centers' squared norms. -/
theorem sqnorms_block (c : Dev nD) (t : Fin cfg0.N) (cc : Fin 1024) :
    (iblk m c 3 t : Vec Ideal S1x1024 .f32) (ix2 (0 : Fin 1) cc)
      = Cert.Rbf.sqNorm (m ((c : Thread nD τ).loc main_arg1) : S1024x256.Idx → EReal) cc := by
  unfold iblk
  rw [View.read_apply]
  show (V m c main_v4 : S1x1024.Idx → EReal) _ = _
  rw [HostPrefix.V_csq]
  obtain ⟨-, -, -, -, -, -, e0, e1, -⟩ := block_indices t
  have e : ((cfg0.win 3).blk t).view.emb (ix2 (0 : Fin 1) cc) = ix2 (0 : Fin 1) cc := funext fun a => Fin.ext (by
    match a with
    | ⟨0, _⟩ => show win0_3.index t (0 : Fin 2) * 1 + 1 * 0 = 0; rw [e0]
    | ⟨1, _⟩ => show win0_3.index t (1 : Fin 2) * 1024 + 1 * cc.val = cc.val; rw [e1]; omega)
  rw [e]
  exact HostPrefix.csq_apply _ cc

/-- The layer of the three arguments as core c holds them. -/
abbrev result (c : Dev nD) : S16384x512.Idx → EReal :=
  Cert.Rbf.layer (m ((c : Thread nD τ).loc main_arg0) : S16384x256.Idx → EReal)
    (m ((c : Thread nD τ).loc main_arg1) : S1024x256.Idx → EReal) (m ((c : Thread nD τ).loc main_arg2) : S1024x512.Idx → EReal)

/-- WHAT POINT t WRITES BACK is rows 1024·t … 1024·t + 1023 of the layer. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero zero_offsets]
  simp only [View.ld_unit_zero (S := S1024x256) zero_offsets, View.ld_unit_zero (S := S1x1024) zero_offsets,
    View.ld_unit_zero (S := S1024x512) zero_offsets]
  funext j
  have hN : cfg0.N = 16 := N_0
  have ht : t.val < cfg0.N := t.isLt
  have hj0 : (j 0).val < 1024 := (j 0).isLt
  have hj1 : (j 1).val < 512 := (j 1).isLt
  obtain ⟨-, -, -, -, -, -, -, -, e0, e1⟩ := block_indices t
  have hj : j = ix2 (⟨(j 0).val, hj0⟩ : Fin 1024) (⟨(j 1).val, hj1⟩ : Fin 512) :=
    funext fun a => Fin.ext (by match a with | ⟨0, _⟩ => rfl | ⟨1, _⟩ => rfl)
  have hi : ((cfg0.win 4).blk t).view.emb j
      = ix2 (⟨t.val * 1024 + (j 0).val, by omega⟩ : Fin 16384) (⟨(j 1).val, hj1⟩ : Fin 512) :=
    funext fun a => Fin.ext (by
      match a with
      | ⟨0, _⟩ => show win0_4.index t (0 : Fin 2) * 1024 + 1 * (j 0).val = t.val * 1024 + (j 0).val; rw [e0]; omega
      | ⟨1, _⟩ => show win0_4.index t (1 : Fin 2) * 512 + 1 * (j 1).val = (j 1).val; rw [e1]; omega)
  show k0_pay1 (F := Ideal) (iblk m c 0 t) (iblk m c 3 t) (iblk m c 1 t) (iblk m c 2 t) j
    = result m c (((cfg0.win 4).blk t).view.emb j)
  rw [hi]
  refine (congrArg (k0_pay1 (F := Ideal) (iblk m c 0 t) (iblk m c 3 t) (iblk m c 1 t) (iblk m c 2 t)) hj).trans ?_
  exact Body.block_layer (m ((c : Thread nD τ).loc main_arg0)) (m ((c : Thread nD τ).loc main_arg1))
    (m ((c : Thread nD τ).loc main_arg2)) (iblk m c 0 t) (iblk m c 3 t) (iblk m c 1 t) (iblk m c 2 t)
    ⟨(j 0).val, hj0⟩ ⟨(j 1).val, hj1⟩ ⟨t.val * 1024 + (j 0).val, by omega⟩
    (fun k => points_block m c t ⟨(j 0).val, hj0⟩ k ⟨t.val * 1024 + (j 0).val, by omega⟩ rfl)
    (fun cc k => centers_block m c t cc k)
    (fun cc => weights_block m c t cc ⟨(j 1).val, hj1⟩)
    (fun cc => sqnorms_block m c t cc)

/-- An index of the result array is in point t's block iff each coordinate is in the block's range on its axis. -/
theorem mem_block (t : Fin cfg0.N) (i : S16384x512.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v5).slice (win0_4.rect t)).set ↔ _
  rw [View.set_slice_whole, Rect.mem_set_unit]
  exact Iff.rfl

/-- Every row of the result array is in the block of the point its row number divided by 1024 names. -/
theorem covered (i : S16384x512.Idx) :
    ∃ t : Fin cfg0.N, (cfg0.win 4).flush t = true ∧ i ∈ ((cfg0.win 4).blk t).view.set := by
  have hN : cfg0.N = 16 := N_0
  have hi0 : (i 0).val < 16384 := (i 0).isLt
  have hi1 : (i 1).val < 512 := (i 1).isLt
  refine ⟨⟨(i 0).val / 1024, by omega⟩, flush0_4 _, ?_⟩
  rw [mem_block]
  obtain ⟨-, -, -, -, -, -, -, -, e0, e1⟩ := block_indices ⟨(i 0).val / 1024, by omega⟩
  intro a
  match a with
  | ⟨0, _⟩ =>
    show win0_4.index ⟨(i 0).val / 1024, _⟩ (0 : Fin 2) * 1024 ≤ (i 0).val
      ∧ (i 0).val < win0_4.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win0_4.index ⟨(i 0).val / 1024, _⟩ (1 : Fin 2) * 512 ≤ (i 1).val
      ∧ (i 1).val < win0_4.index ⟨(i 0).val / 1024, _⟩ (1 : Fin 2) * 512 + 512
    rw [e1]; omega

/-- THE RESULT ARRAY after the run is the layer. -/
theorem final (c : Dev nD) : (dats m 0 c).arrAt 4 cfg0.N = result m c :=
  (dats m 0 c).arrAt_eq_of_cover 4 (result m c) (fun t _ => flushed_eq m c t) covered

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.KernelLayer

end
-- ==== Proof.RefLayer.lean ====
/-
  The reference program computes the radial-basis layer.

  Read one operation at a time, the reference's result at (n, o) is the sum over the centers c of
  exp (-1 · max ((Σ_k x(n,k)² + Σ_k cen(c,k)²) - 2 · Σ_k x(n,k) · cen(c,k), 0)) · w(c, o): its two row sums start from a
  zero that adds nothing, its transposed centers are read back at (c, k), and its two matrix products are plain sums
  over the contracted axis. That is Rbf.layer of the three arguments.
-/
import proofs.«109111_j3968549781593_2_alg».proof.Proof.Gen.ReferenceIdeal.Read
import proofs.«109111_j3968549781593_2_alg».proof.Proof.Rbf
import Idealize.ShloMosaic.PureOps.Ideal.Laws

noncomputable section

open scoped BigOperators

namespace Cert.ReferenceIdeal.RefLayer

open Cert.ReferenceIdeal Cert.ReferenceIdeal.Read Idealize.ShloMosaic Idealize.ShloMosaic.ValueIdx

/-- The basis matrix the reference exponentiates, at (n, c). -/
theorem basis_apply (x0 : (⟨S16384x256, .f32⟩ : BufTy).Contents (Elt Ideal)) (x1 : (⟨S1024x256, .f32⟩ : BufTy).Contents (Elt Ideal))
    (n : Fin 16384) (c : Fin 1024) :
    val_main_v18 (F := Ideal) x0 x1 (ix2 n c) = Cert.Rbf.basis x0 x1 n c := by
  have e1 : ∀ k : Fin 256, idx_main_v1 (idx_main_v2 (idx_main_v6 (ix2 n c))) k = ix2 n k := fun k =>
    funext fun a => Fin.ext (by match a with | ⟨0, _⟩ => rfl | ⟨1, _⟩ => rfl)
  have e2 : ∀ k : Fin 256, idx_main_v4 (idx_main_v5 (idx_main_v7 (ix2 n c))) k = ix2 c k := fun k =>
    funext fun a => Fin.ext (by match a with | ⟨0, _⟩ => rfl | ⟨1, _⟩ => rfl)
  have e3 : ∀ k : Fin 256, lidx_main_v10 (ix2 n c) k = ix2 n k := fun k =>
    funext fun a => Fin.ext (by match a with | ⟨0, _⟩ => rfl | ⟨1, _⟩ => rfl)
  have e4 : ∀ k : Fin 256, idx_main_v9 (ridx_main_v10 (ix2 n c) k) = ix2 c k := fun k =>
    funext fun a => Fin.ext (by match a with | ⟨0, _⟩ => rfl | ⟨1, _⟩ => rfl)
  rw [val_main_v18_apply, val_main_v17_apply, val_main_v16_apply, val_main_cst_3_apply, val_main_v15_apply,
    val_main_v14_apply, val_main_cst_2_apply, val_main_v13_apply, val_main_v8_apply, val_main_v6_apply, val_main_v2_apply,
    val_main_v1_apply, val_main_v7_apply, val_main_v5_apply, val_main_v4_apply, val_main_v12_apply, val_main_v11_apply,
    val_main_cst_1_apply, val_main_v10_apply, val_main_cst_apply, val_main_cst_0_apply]
  simp only [val_main_v0_apply, val_main_v3_apply, val_main_v9_apply, e1, e2, e3, e4, Ideal.mulf_def, Ideal.addf_def,
    Ideal.subf_def, Ideal.maximumf_def, Ideal.hostUnary_exp_def, Ideal.ofBits_def, Ideal.ofBits_zero_f32, zero_add]
  unfold Cert.Rbf.basis Cert.Rbf.gauss Cert.Rbf.sqNorm Cert.Rbf.inner
  rfl

/-- The reference's result is the layer of its three arguments. -/
theorem result_eq (x0 : (⟨S16384x256, .f32⟩ : BufTy).Contents (Elt Ideal)) (x1 : (⟨S1024x256, .f32⟩ : BufTy).Contents (Elt Ideal))
    (x2 : (⟨S1024x512, .f32⟩ : BufTy).Contents (Elt Ideal)) :
    val_main_v19 (F := Ideal) x0 x1 x2 = Cert.Rbf.layer x0 x1 x2 := by
  funext i
  obtain ⟨n, o, rfl⟩ : ∃ (n : Fin 16384) (o : Fin 512), i = ix2 n o := ⟨i 0, i 1, eq_ix2 i⟩
  rw [val_main_v19_apply, Cert.Rbf.layer_ix2]
  refine Finset.sum_congr rfl fun c _ => ?_
  have el : lidx_main_v19 (ix2 n o) c = ix2 n c :=
    funext fun a => Fin.ext (by match a with | ⟨0, _⟩ => rfl | ⟨1, _⟩ => rfl)
  have er : ridx_main_v19 (ix2 n o) c = ix2 c o :=
    funext fun a => Fin.ext (by match a with | ⟨0, _⟩ => rfl | ⟨1, _⟩ => rfl)
  rw [el, er, basis_apply]

end Cert.ReferenceIdeal.RefLayer

end
-- ==== Proof.lean ====
/-
  A Gaussian radial-basis layer: a kernel tiled over blocks of rows against the whole-array reference.

  For points x [16384, 256], centers cen [1024, 256] and weights w [1024, 512] both programs compute, over the
  extended reals,

    out (n, o) = Σ_c exp (-1 · max (|x_n|² + |cen_c|² - 2 · ⟨x_n, cen_c⟩, 0)) · w (c, o)        (Rbf.layer).

  The reference does so on whole arrays (RefLayer.result_eq). The kernel's host prefix rounds centers and weights to
  bf16, which changes nothing on the extended reals, and computes the centers' squared norms once; its 16 grid points
  each take 1024 rows of x and produce the same 1024 rows of the output (Body.block_layer), since a row of the layer
  depends on that row of x alone; the 16 blocks cover the output (KernelLayer.final). The two sides are the same sums
  in the same order of terms, so no finiteness of the inputs is used. The idealization rewrote nothing, so that claim
  is trivial, and the three frames are the programs' generated runs.
-/
import proofs.«109111_j3968549781593_2_alg».proof.Defs
import proofs.«109111_j3968549781593_2_alg».proof.Proof.Gen.Kernel
import proofs.«109111_j3968549781593_2_alg».proof.Proof.Gen.Kernel.Skeleton
import proofs.«109111_j3968549781593_2_alg».proof.Proof.Gen.Kernel.Launch
import proofs.«109111_j3968549781593_2_alg».proof.Proof.Gen.Kernel.Points
import proofs.«109111_j3968549781593_2_alg».proof.Proof.Gen.Kernel.Frame
import proofs.«109111_j3968549781593_2_alg».proof.Proof.Gen.KernelIdeal
import proofs.«109111_j3968549781593_2_alg».proof.Proof.Gen.KernelIdeal.Skeleton
import proofs.«109111_j3968549781593_2_alg».proof.Proof.Gen.KernelIdeal.Launch
import proofs.«109111_j3968549781593_2_alg».proof.Proof.Gen.KernelIdeal.Points
import proofs.«109111_j3968549781593_2_alg».proof.Proof.Gen.KernelIdeal.Frame
import proofs.«109111_j3968549781593_2_alg».proof.Proof.Gen.ReferenceIdeal
import proofs.«109111_j3968549781593_2_alg».proof.Proof.Gen.Pre_finite_inputs
import proofs.«109111_j3968549781593_2_alg».proof.Proof.Gen.KernelIdeal.Value
import proofs.«109111_j3968549781593_2_alg».proof.Proof.Gen.ReferenceIdeal.Run
import proofs.«109111_j3968549781593_2_alg».proof.Proof.Gen.ReferenceIdeal.Read
import proofs.«109111_j3968549781593_2_alg».proof.Proof.KernelLayer
import proofs.«109111_j3968549781593_2_alg».proof.Proof.RefLayer
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the layer of arguments that agree. -/
theorem algebraic : Cert.algebraic_KernelIdeal_ReferenceIdeal := by
  intro m ρ m' ρ' _ hagree
  refine ⟨fun c => Cert.KernelIdeal.KernelLayer.result m c, Cert.KernelIdeal.KernelLayer.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v19_eq _ _ _).trans (Cert.ReferenceIdeal.RefLayer.result_eq _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
